-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x8192x1024 : Shape := ⟨3, ![8, 8192, 1024]⟩
abbrev S8x1024x4096 : Shape := ⟨3, ![8, 1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x8192x1024 : S_.BroadcastsInDim S8x8192x1024 (![] : Fin 0 → Fin S8x8192x1024.rank)
  reducesTo_S8x8192x1024_S_d0_1_2 : S8x8192x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn {F : FTy → Type} [FloatOps F] (main_arg0 : FVec F S8x2048x1024 .f32) (main_arg1 : FVec F S8x8192x1024 .f32) (main_arg2 : FVec F S8x1024x4096 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  main_v13
-- ==== Kernel.lean ====
abbrev S8x2048x1024 : Shape := ⟨3, ![8, 2048, 1024]⟩
abbrev S8x8192x1024 : Shape := ⟨3, ![8, 8192, 1024]⟩
abbrev S8x1024x4096 : Shape := ⟨3, ![8, 1024, 4096]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x8192x1024, .f32⟩
  | .hbm, ⟨2, _⟩ => ⟨S8x1024x4096, .f32⟩
  | .hbm, ⟨3, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S512x1024_S1x512x1024 : S512x1024.ShapeCasts S1x512x1024
  dot_S512x1024_S512x1024_S512x512_1_1_0_0_n_n_wf : DotDims.WF S512x1024 S512x1024 S512x512 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x8192x1024.size a
  hwx0_1 : ∀ i : grid0.Coords, EltTy.bits .f32 = 32 ∨ (Rect.block (s := S8x8192x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x8192x1024.size a
  hwx0_2 : ∀ i : grid0.Coords, EltTy.bits .f32 = 32 ∨ (Rect.block (s := S8x8192x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x4096.size a
  hwx0_3 : ∀ i : grid0.Coords, EltTy.bits .f32 = 32 ∨ (Rect.block (s := S8x1024x4096) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x8192x1024 : Shape := ⟨3, ![8, 8192, 1024]⟩
abbrev S8x1024x4096 : Shape := ⟨3, ![8, 1024, 4096]⟩
abbrev S8x2048x8192 : Shape := ⟨3, ![8, 2048, 8192]⟩
abbrev S8x2048x4096 : Shape := ⟨3, ![8, 2048, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x8192x1024, .f32⟩
  | .hbm, ⟨2, _⟩ => ⟨S8x1024x4096, .f32⟩
  | .hbm, ⟨3, _⟩ => ⟨S8x2048x8192, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8x2048x8192_S8x2048x4096_0_0_0 : S8x2048x8192.Slices ![0, 0, 0] S8x2048x4096
  slices_S8x2048x8192_S8x2048x4096_0_0_4096 : S8x2048x8192.Slices ![0, 0, 4096] S8x2048x4096
  bcast_S_S8x2048x4096 : S_.BroadcastsInDim S8x2048x4096 (![] : Fin 0 → Fin S8x2048x4096.rank)
  dot_S8x2048x1024_S8x8192x1024_S8x2048x8192_2_2_1_1_0_0_wf : DotDims.WF S8x2048x1024 S8x8192x1024 S8x2048x8192 [2] [2] [1] [1] [0] [0]
  dot_S8x2048x4096_S8x1024x4096_S8x2048x1024_2_2_1_1_0_0_wf : DotDims.WF S8x2048x4096 S8x1024x4096 S8x2048x1024 [2] [2] [1] [1] [0] [0]

variable [Facts₀]

def dot_S8x2048x1024_S8x8192x1024_S8x2048x8192_2_2_1_1_0_0 : DotDims S8x2048x1024 S8x8192x1024 S8x2048x8192 where
  lhsContracting := [2]
  rhsContracting := [2]
  lhsNonContracting := [1]
  rhsNonContracting := [1]
  lhsBatch := [0]
  rhsBatch := [0]
  wf := dot_S8x2048x1024_S8x8192x1024_S8x2048x8192_2_2_1_1_0_0_wf
def dot_S8x2048x4096_S8x1024x4096_S8x2048x1024_2_2_1_1_0_0 : DotDims S8x2048x4096 S8x1024x4096 S8x2048x1024 where
  lhsContracting := [2]
  rhsContracting := [2]
  lhsNonContracting := [1]
  rhsNonContracting := [1]
  lhsBatch := [0]
  rhsBatch := [0]
  wf := dot_S8x2048x4096_S8x1024x4096_S8x2048x1024_2_2_1_1_0_0_wf

class Facts : Prop extends Facts₀ where

variable [Facts]
-- ==== Proof.K.Setup.lean ====
/-
  What the runs of the fused kernel's body and its launch share, for any float instance.

  The grid has 8 · 4 · 8 = 256 points, the last axis (the blocks of the intermediate dimension) innermost: point `t` is
  block `t % 8` of the reduction. The body resets its accumulator at the first block (`t % 8 = 0`), adds one block's
  contribution at every point, and stores the accumulator into the output window at the last block (`t % 8 = 7`),
  the only points where the output window is live and written back. @main is the region alone, so the arrays the
  region finds are the launch contents.
-/
import proofs.«122314_j50105088475309_2_alg».proof.Proof.Gen.Kernel.Launch
import proofs.«122314_j50105088475309_2_alg».proof.Proof.Gen.Kernel.Skeleton
import proofs.«122314_j50105088475309_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region -/

/-- Core `c`'s buffer contents when the region is entered: the launch contents. -/
abbrev V (c : Dev nD) (b : Ref sig .tc) : Buf (Elt F) ((c : Thread nD τ).loc b) := m ((c : Thread nD τ).loc b)

/-- @main reduces to the region and the return, holding the unscoped buffers at the launch contents. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The body's two branch conditions, in closed form over the grid -/

/-- The first `scf.if`: the reduction's first block. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- The second `scf.if`: the reduction's last block. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the output window is idle -/

theorem live_in (w : Fin cfg0.W) (hw : w.val < 4) : ∀ i, cfg0.idle w i = false := by
  intro i
  match w, hw with
  | ⟨0, _⟩, _ => rfl
  | ⟨1, _⟩, _ => rfl
  | ⟨2, _⟩, _ => rfl
  | ⟨3, _⟩, _ => rfl
/-- Off the last block the output window is idle: the body stores nothing into it, -/
theorem idle_out : ∀ t : Fin cfg0.N, ¬cond1 (grid0.coords t) → cfg0.idle 4 (grid0.coords t) = true := by decide +kernel
/-- and the pipeline does not write it back there. -/
theorem noFlush_out : ∀ t : Fin cfg0.N, ¬cond1 (grid0.coords t) → (cfg0.win 4).flush t = false := by decide +kernel
/-- At the last block it is live. -/
theorem live_out : ∀ t : Fin cfg0.N, cond1 (grid0.coords t) → cfg0.idle 4 (grid0.coords t) = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1024 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S512x1024 .f32 := Memref.whole cc0_scratch0
/-- The accumulator and one staging buffer of the output window as views, through which their contents are stated. -/
abbrev VS : View sig .tc .vmem S512x1024 .f32 := scM.view
abbrev VO : View sig .tc .vmem S1x512x1024 .f32 := (Memref.whole cc0_stg4_0 : Memref sig .tc .vmem S1x512x1024 .f32).view

/-- The scoped buffers that are no staging buffer: the accumulator, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.Kernel.Body

end
-- ==== Proof.K.RunA.lean ====
/-
  The body at the reduction's FIRST block (the first conditional taken, the second not): the accumulator, whatever it
  held, is overwritten with zeros and then with zeros plus this block's contribution; the four input buffers are
  read and handed back as found, the output buffer is not touched.
-/
import proofs.«122314_j50105088475309_2_alg».proof.Proof.K.Setup

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the accumulator at a first block, with the proof that the body runs from whole
    memrefs — the inputs at their contents, the output at contents handed back untouched, the accumulator at anything
    — to the continuation holding the inputs as they were and the accumulator with those pieces written. -/
noncomputable def kernelRun_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : cond0 i) (hc1 : ¬cond1 i)
    (x0 x1 x2 : Vec F S1x512x1024 .f32) (x3 : Vec F S1x1024x512 .f32) :
    { LS : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Body

end
-- ==== Proof.K.RunB.lean ====
/-
  The body at a MIDDLE block of the reduction (neither conditional taken): the accumulator, at what the block before
  left, is overwritten with itself plus this block's contribution; the output buffer is not touched.
-/
import proofs.«122314_j50105088475309_2_alg».proof.Proof.K.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the store leaves in the accumulator at a middle block, with the proof that the body runs from whole
    memrefs — the accumulator at the contents `xs` the block before left — to the continuation. -/
noncomputable def kernelRun_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : ¬cond1 i)
    (x0 x1 x2 : Vec F S1x512x1024 .f32) (x3 : Vec F S1x1024x512 .f32) (xs : Vec F S512x1024 .f32) :
    { LS : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Body

end
-- ==== Proof.K.RunC.lean ====
/-
  The body at the reduction's LAST block (the first conditional not taken, the second taken): the accumulator is
  overwritten with itself plus this block's contribution and then copied, whole, into the output buffer.
-/
import proofs.«122314_j50105088475309_2_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the output buffer and in the accumulator at a last block, with the proof that the
    body runs from whole memrefs — the output at anything, the accumulator at the contents `xs` the block before left
    — to the continuation holding each with its pieces written. -/
noncomputable def kernelRun_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) :
    Σ' (L4 : List (View.Piece (Elt F) S1x512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Body

end
-- ==== Proof.LibSharedFrame.lean ====
/-
  A frame run for a pipeline whose INPUT windows may read one array through several windows.

  When every window has an array of its own, the launch hands each window its array whole. When two input windows read
  one array (two blocks of one weight matrix fetched side by side), the array's buffer is one resource and the proof
  must say how it is dealt among the windows on it: each window holds a share of it, the shares composing to the whole.
  This file states the run for that case once, for a kernel with no semaphore of its own whose body carries something
  in its scratch buffers from point to point: the invariant is the proof data's own at every point, entered from the
  scratch buffers at anything before the first point and returned to that after the last. What the certificate
  supplies beyond the usual proof data and body obligation is `hsplit`: the distinct buffers behind the arrays, each
  whole at its entry contents, yield every window's array at that window's share.

  The conclusion reads every window's array after the run at what the proof data compute for it: an input its entry
  contents, an output those overwritten block by block at each write-back. Windows on one array read the same contents.
-/
import Idealize.ShloMosaic.Lib.Pipeline.Frame

noncomputable section

namespace Cert.LibShared

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE RUN, windows sharing arrays: from any memory with zero counters every weakly fair execution of @main on the
    TensorCores terminates, nothing faulting, and every window's array ends at the proof data's `arrAt` after the last
    point. `hw` is the windows' layout but for the arrays' distinctness; `hsplit` deals the buffers behind the arrays
    among the windows at the proof data's shares; `hin` / `hout` enter the tracking invariant from the scratch buffers
    at anything and leave it to them. -/
theorem θ_run_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g)
      (fun r => ∀ c : Dev nD, ∀ w, r.2.mem (((cfgs p).spec w).arr.view.loc (c.tc : Thread nD τ)) = (dats p c).arrAt w (cfgs p).N) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => (BI.emp : sProp 𝕄)) (Y := fun _ => (BI.emp : sProp 𝕄))
    (Z := fun c => unscopedRest (cfgs p).spec c (V c))
    (hX := fun c => by
      iintro H
      isplitr; · iempintro
      iexact H)
    (hin := fun c => (show iprop((BI.emp : sProp 𝕄) ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun _ _ => True)
    (hY := fun c s' => by
      iintro ⟨-, -, HSI⟩
      imodintro
      isplitr; · ipureintro; trivial
      iexact HSI)
    (hQ := fun s h c w => (h c).1 w)

end Cert.LibShared

end
-- ==== Proof.K.Frame.lean ====
/-
  The fused kernel's run, for any float instance: what the accumulator and the output window hold after every grid
  point, the proof data of the one pipeline, the body's obligation at a generic point, and the launch.

  Point `t` is block `t % 8` of the reduction over the intermediate axis. After a first block the accumulator holds
  what that block's stores leave over zeros; after any other block, what its store leaves over the accumulator of the
  point before; at a last block the output window's buffer holds the accumulator, and only there is it written back.
  Two input windows read one array, the first weight — the gate rows and the up rows of the same expert —, so that
  array's buffer is dealt between them in two halves.
-/
import proofs.«122314_j50105088475309_2_alg».proof.Proof.K.RunC
import proofs.«122314_j50105088475309_2_alg».proof.Proof.LibSharedFrame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first block's pieces cover the accumulator. -/
theorem scover_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : cond0 i) (hc1 : ¬cond1 i)
    (x0 x1 x2 : Vec F S1x512x1024 .f32) (x3 : Vec F S1x1024x512 .f32) (y : S512x1024.Idx) :
    ∃ pc ∈ (kernelRun_A c i arg3 harg3 arg4 harg4 arg5 harg5 arg6 harg6 arg7 harg7 arg8 harg8 hc0 hc1 x0 x1 x2 x3).1, y ∈ pc.1.set :=
  View.cover_of_tiledL (kernelRun_A c i arg3 harg3 arg4 harg4 arg5 harg5 arg6 harg6 arg7 harg7 arg8 harg8 hc0 hc1 x0 x1 x2 x3).1 S512x1024.size (by sl_kernel_rfl) y

/-- What a first block leaves in the accumulator: its pieces read back. -/
def sout_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : cond0 i) (hc1 : ¬cond1 i)
    (x0 x1 x2 : Vec F S1x512x1024 .f32) (x3 : Vec F S1x1024x512 .f32) : Vec F S512x1024 .f32 :=
  VS.read (Elt F) (VS.writes (Elt F) VS.junk (kernelRun_A c i arg3 harg3 arg4 harg4 arg5 harg5 arg6 harg6 arg7 harg7 arg8 harg8 hc0 hc1 x0 x1 x2 x3).1)

/-- A middle block's piece covers the accumulator. -/
theorem scover_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : ¬cond1 i)
    (x0 x1 x2 : Vec F S1x512x1024 .f32) (x3 : Vec F S1x1024x512 .f32) (xs : Vec F S512x1024 .f32) (y : S512x1024.Idx) :
    ∃ pc ∈ (kernelRun_B c i arg3 harg3 arg4 harg4 arg5 harg5 arg6 harg6 arg7 harg7 arg8 harg8 hc0 hc1 x0 x1 x2 x3 xs).1, y ∈ pc.1.set :=
  View.cover_of_tiledL (kernelRun_B c i arg3 harg3 arg4 harg4 arg5 harg5 arg6 harg6 arg7 harg7 arg8 harg8 hc0 hc1 x0 x1 x2 x3 xs).1 S512x1024.size (by sl_kernel_rfl) y

/-- What a middle block leaves in the accumulator. -/
def sout_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : ¬cond1 i)
    (x0 x1 x2 : Vec F S1x512x1024 .f32) (x3 : Vec F S1x1024x512 .f32) (xs : Vec F S512x1024 .f32) : Vec F S512x1024 .f32 :=
  VS.read (Elt F) (VS.writes (Elt F) VS.junk (kernelRun_B c i arg3 harg3 arg4 harg4 arg5 harg5 arg6 harg6 arg7 harg7 arg8 harg8 hc0 hc1 x0 x1 x2 x3 xs).1)

/-- A last block's piece covers the output window's buffer, -/
theorem cover_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) (y : S1x512x1024.Idx) :
    ∃ pc ∈ (kernelRun_C c i arg3 harg3 arg4 harg4 arg5 harg5 arg6 harg6 arg7 harg7 arg8 harg8 hc0 hc1 x0 x1 x2 x3 xs).1, y ∈ pc.1.set :=
  View.cover_of_tiledL (kernelRun_C c i arg3 harg3 arg4 harg4 arg5 harg5 arg6 harg6 arg7 harg7 arg8 harg8 hc0 hc1 x0 x1 x2 x3 xs).1 S1x512x1024.size (by sl_kernel_rfl) y

/-- and this is what it leaves there. -/
def out_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) : Vec F S1x512x1024 .f32 :=
  VO.read (Elt F) (VO.writes (Elt F) VO.junk (kernelRun_C c i arg3 harg3 arg4 harg4 arg5 harg5 arg6 harg6 arg7 harg7 arg8 harg8 hc0 hc1 x0 x1 x2 x3 xs).1)

/-- A last block's piece covers the accumulator. -/
theorem scover_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) (y : S512x1024.Idx) :
    ∃ pc ∈ (kernelRun_C c i arg3 harg3 arg4 harg4 arg5 harg5 arg6 harg6 arg7 harg7 arg8 harg8 hc0 hc1 x0 x1 x2 x3 xs).2.1, y ∈ pc.1.set :=
  View.cover_of_tiledL (kernelRun_C c i arg3 harg3 arg4 harg4 arg5 harg5 arg6 harg6 arg7 harg7 arg8 harg8 hc0 hc1 x0 x1 x2 x3 xs).2.1 S512x1024.size (by sl_kernel_rfl) y

/-- What a last block leaves in the accumulator. -/
def sout_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) : Vec F S512x1024 .f32 :=
  VS.read (Elt F) (VS.writes (Elt F) VS.junk (kernelRun_C c i arg3 harg3 arg4 harg4 arg5 harg5 arg6 harg6 arg7 harg7 arg8 harg8 hc0 hc1 x0 x1 x2 x3 xs).2.1)

/-- Off the last block nothing is stored into the output window: a placeholder nothing consults (the window is then
    neither written back nor read at the next point). -/
def out_idle : Vec F S1x512x1024 .f32 := VO.read (Elt F) VO.junk

/-! ## What the output window and the accumulator hold after each point -/

/-- THE ACCUMULATION, by recursion on the point: the output window's buffer and the accumulator after the body at
    position `n` — the case the closed forms select, run at the point's memrefs and input blocks, over the accumulator
    the point before left. -/
def outsAt (c : Dev nD) : (n : ℕ) → n < cfg0.N → Vec F S1x512x1024 .f32 × Vec F S512x1024 .f32
  | 0, hn => (out_idle, sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out_idle, sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (out_idle, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- At a first block. -/
theorem outsAt_A (c : Dev nD) (t : Fin cfg0.N) (h0 : t.val % 8 = 0) (h1 : ¬t.val % 8 = 7) :
    outsAt m c t.val t.isLt = (out_idle, sout_A c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle block: over what the point before left. -/
theorem outsAt_B (c : Dev nD) (t : Fin cfg0.N) (h0 : ¬t.val % 8 = 0) (h1 : ¬t.val % 8 = 7) :
    outsAt m c t.val t.isLt = (out_idle, sout_B c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: over what the point before left. -/
theorem outsAt_C (c : Dev nD) (t : Fin cfg0.N) (h0 : ¬t.val % 8 = 0) (h1 : t.val % 8 = 7) :
    outsAt m c t.val t.isLt = (out_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the accumulator at anything; afterwards at what the point before
    left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare ((outsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The pipeline's proof data -/

/-- The proof data of the one pipeline on core `c`: the arrays as the region finds them; after the body at point `t`
    each input's buffer at its block and the output's at `outsAt`; the invariant the accumulator's; nothing owed; the
    first weight's buffer dealt to its two windows in halves, every other input held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [live_in 0 (by decide) (grid0.coords t), after0]
theorem leaves_in1 (c : Dev nD) (t : Fin cfg0.N) : (dats m 0 c).leavesExact 1 t = owns (c : Thread nD τ) (ms1 t) fullShare (iblk m c 1 t) := by
  unfold Dat.leavesExact; rw [live_in 1 (by decide) (grid0.coords t), after1]
theorem leaves_in2 (c : Dev nD) (t : Fin cfg0.N) : (dats m 0 c).leavesExact 2 t = owns (c : Thread nD τ) (ms2 t) fullShare (iblk m c 2 t) := by
  unfold Dat.leavesExact; rw [live_in 2 (by decide) (grid0.coords t), after2]
theorem leaves_in3 (c : Dev nD) (t : Fin cfg0.N) : (dats m 0 c).leavesExact 3 t = owns (c : Thread nD τ) (ms3 t) fullShare (iblk m c 3 t) := by
  unfold Dat.leavesExact; rw [live_in 3 (by decide) (grid0.coords t), after3]

set_option maxHeartbeats 4800000 in
/-- The body at any point: the inputs' memrefs hold their blocks; the closed forms say which case the point is in; the
    invariant hands the body the accumulator at what the point before left (at anything before the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idle_out t (fun h => h1 ((hcond1 t).mp h))) (noFlush_out t (fun h => h1 ((hcond1 t).mp h)))]
    rw [outsAt_A m c t h0 h1]
    unfold sout_A; (try dsimp only)
    have hrun := (kernelRun_A c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t)).2
    have hfin : ∀ es, iprop(∃ f, scM.view.loc (c : Thread nD τ) ↦[scM.view.set]{fullShare} scM.view.writes (Elt F) f es) ⊢ (iprop(∃ f, scM.view.loc (c : Thread nD τ) ↦[scM.view.set]{fullShare} scM.view.writes (Elt F) f es) : sProp 𝕄) := fun _ => .rfl
    by_cases hz : t.val = 0
    · rw [PhiS_castSucc m c t, PhiS_zero m c _ _ hz, scopedRest_acc]
      iintro ⟨HS, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scover_A c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS]
      · unfold owns; iexists _; isplitr
        swap; · iexact HS
        ipureintro; exact View.read_writes_of_cover _ _ _ _ _ (scover_A c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms4 t) fullShare ((dats m 0 c).after 4 t) from by
        unfold Dat.leavesExact; rw [live_out t ((hcond1 t).mpr h1)], after4]
      rw [outsAt_C m c t h0 h1]
      unfold out_C sout_C; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRun_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (scover_C c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C c _ _ _ _ _ _ _ _ _ _ _ _ _ _ _ _ _ _ _ _)
    · rw [Dat.leavesExact_idle (dats m 0 c) 4 t (idle_out t (fun h => h1 ((hcond1 t).mp h))) (noFlush_out t (fun h => h1 ((hcond1 t).mp h)))]
      rw [outsAt_B m c t h0 h1]
      unfold sout_B; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRun_B c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scover_B c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hne, scopedRest_acc]
  iintro HS
  iexists _; iexact HS

/-! ## The arrays' buffers dealt among the windows -/

/-- The distinct buffers behind the windows' arrays, one by one. -/
theorem arrBufs_list (Φ : Ref sig .tc → sProp 𝕄) :
    bigSep (Finset.univ.image (Pipeline.arrRef spec0)) Φ = iprop(Φ main_arg0 ∗ Φ main_arg1 ∗ Φ main_arg2 ∗ Φ main_v0) :=
  bigSep_eq_bigSepL_of_eq [main_arg0, main_arg1, main_arg2, main_v0] (by decide) (by decide) Φ

/-- A window's array at the proof data's share and entry contents is its buffer's points-to at that share. -/
theorem arr_pt (c : Dev nD) (w : Fin cfg0.W) (q : PosShare TreeShare) (hq : (dats m 0 c).share w = q) :
    (((cfg0.win w).arr.view.loc (c.tc : Thread nD τ) ↦[(cfg0.win w).arr.view.set]{(dats m 0 c).share w} (dats m 0 c).arrAt w 0) : sProp 𝕄)
      = (((c.tc : Thread nD τ).loc (Pipeline.arrRef spec0 w)) ↦{q} V m c (Pipeline.arrRef spec0 w)) := by
  rw [(arr_whole0 w).set_eq_univ, hq]; rfl

/-- The four buffers behind the five windows' arrays, each whole at its entry contents, yield every window's array at
    its share: the first weight's buffer splits into the gate window's half and the up window's half. -/
theorem hsplit (c : Dev nD) : (Pipeline.arrBufs spec0 c (V m c) : sProp 𝕄) ⊢ (dats m 0 c).arrays ((dats m 0 c).arrAt · 0) := by
  unfold Pipeline.arrBufs Dat.arrays
  rw [arrBufs_list, bigSep_W0]
  rw [arr_pt m c 0 fullShare rfl, arr_pt m c 1 fullShare.left rfl, arr_pt m c 2 fullShare.right rfl, arr_pt m c 3 fullShare rfl,
    arr_pt m c 4 fullShare rfl]
  iintro ⟨H0, H1, H2, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  iexact H3

/-! ## The run -/

set_option backward.isDefEq.respectTransparency.types false in
/-- From any memory with zero counters every weakly fair execution of @main terminates, nothing faulting, and every
    window's array ends at what the proof data compute for it. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Cert.LibShared.θ_run_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- THE FRAME: the three argument arrays end unchanged (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

end Cert.Kernel.Body

end
-- ==== Proof.KI.Setup.lean ====
/-
  What the runs of the fused kernel's body and its launch share, for any float instance.

  The grid has 8 · 4 · 8 = 256 points, the last axis (the blocks of the intermediate dimension) innermost: point `t` is
  block `t % 8` of the reduction. The body resets its accumulator at the first block (`t % 8 = 0`), adds one block's
  contribution at every point, and stores the accumulator into the output window at the last block (`t % 8 = 7`),
  the only points where the output window is live and written back. @main is the region alone, so the arrays the
  region finds are the launch contents.
-/
import proofs.«122314_j50105088475309_2_alg».proof.Proof.Gen.KernelIdeal.Launch
import proofs.«122314_j50105088475309_2_alg».proof.Proof.Gen.KernelIdeal.Skeleton
import proofs.«122314_j50105088475309_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region -/

/-- Core `c`'s buffer contents when the region is entered: the launch contents. -/
abbrev V (c : Dev nD) (b : Ref sig .tc) : Buf (Elt F) ((c : Thread nD τ).loc b) := m ((c : Thread nD τ).loc b)

/-- @main reduces to the region and the return, holding the unscoped buffers at the launch contents. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The body's two branch conditions, in closed form over the grid -/

/-- The first `scf.if`: the reduction's first block. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- The second `scf.if`: the reduction's last block. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the output window is idle -/

theorem live_in (w : Fin cfg0.W) (hw : w.val < 4) : ∀ i, cfg0.idle w i = false := by
  intro i
  match w, hw with
  | ⟨0, _⟩, _ => rfl
  | ⟨1, _⟩, _ => rfl
  | ⟨2, _⟩, _ => rfl
  | ⟨3, _⟩, _ => rfl
/-- Off the last block the output window is idle: the body stores nothing into it, -/
theorem idle_out : ∀ t : Fin cfg0.N, ¬cond1 (grid0.coords t) → cfg0.idle 4 (grid0.coords t) = true := by decide +kernel
/-- and the pipeline does not write it back there. -/
theorem noFlush_out : ∀ t : Fin cfg0.N, ¬cond1 (grid0.coords t) → (cfg0.win 4).flush t = false := by decide +kernel
/-- At the last block it is live. -/
theorem live_out : ∀ t : Fin cfg0.N, cond1 (grid0.coords t) → cfg0.idle 4 (grid0.coords t) = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1024 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S512x1024 .f32 := Memref.whole cc0_scratch0
/-- The accumulator and one staging buffer of the output window as views, through which their contents are stated. -/
abbrev VS : View sig .tc .vmem S512x1024 .f32 := scM.view
abbrev VO : View sig .tc .vmem S1x512x1024 .f32 := (Memref.whole cc0_stg4_0 : Memref sig .tc .vmem S1x512x1024 .f32).view

/-- The scoped buffers that are no staging buffer: the accumulator, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.KernelIdeal.Body

end
-- ==== Proof.KI.RunA.lean ====
/-
  The body at the reduction's FIRST block (the first conditional taken, the second not): the accumulator, whatever it
  held, is overwritten with zeros and then with zeros plus this block's contribution; the four input buffers are
  read and handed back as found, the output buffer is not touched.
-/
import proofs.«122314_j50105088475309_2_alg».proof.Proof.KI.Setup

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the accumulator at a first block, with the proof that the body runs from whole
    memrefs — the inputs at their contents, the output at contents handed back untouched, the accumulator at anything
    — to the continuation holding the inputs as they were and the accumulator with those pieces written. -/
noncomputable def kernelRun_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : cond0 i) (hc1 : ¬cond1 i)
    (x0 x1 x2 : Vec F S1x512x1024 .f32) (x3 : Vec F S1x1024x512 .f32) :
    { LS : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Body

end
-- ==== Proof.KI.RunB.lean ====
/-
  The body at a MIDDLE block of the reduction (neither conditional taken): the accumulator, at what the block before
  left, is overwritten with itself plus this block's contribution; the output buffer is not touched.
-/
import proofs.«122314_j50105088475309_2_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the store leaves in the accumulator at a middle block, with the proof that the body runs from whole
    memrefs — the accumulator at the contents `xs` the block before left — to the continuation. -/
noncomputable def kernelRun_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : ¬cond1 i)
    (x0 x1 x2 : Vec F S1x512x1024 .f32) (x3 : Vec F S1x1024x512 .f32) (xs : Vec F S512x1024 .f32) :
    { LS : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Body

end
-- ==== Proof.KI.RunC.lean ====
/-
  The body at the reduction's LAST block (the first conditional not taken, the second taken): the accumulator is
  overwritten with itself plus this block's contribution and then copied, whole, into the output buffer.
-/
import proofs.«122314_j50105088475309_2_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave in the output buffer and in the accumulator at a last block, with the proof that the
    body runs from whole memrefs — the output at anything, the accumulator at the contents `xs` the block before left
    — to the continuation holding each with its pieces written. -/
noncomputable def kernelRun_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) :
    Σ' (L4 : List (View.Piece (Elt F) S1x512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Body

end
-- ==== Proof.KI.Frame.lean ====
/-
  The fused kernel's run, for any float instance: what the accumulator and the output window hold after every grid
  point, the proof data of the one pipeline, the body's obligation at a generic point, and the launch.

  Point `t` is block `t % 8` of the reduction over the intermediate axis. After a first block the accumulator holds
  what that block's stores leave over zeros; after any other block, what its store leaves over the accumulator of the
  point before; at a last block the output window's buffer holds the accumulator, and only there is it written back.
  Two input windows read one array, the first weight — the gate rows and the up rows of the same expert —, so that
  array's buffer is dealt between them in two halves.
-/
import proofs.«122314_j50105088475309_2_alg».proof.Proof.KI.RunC
import proofs.«122314_j50105088475309_2_alg».proof.Proof.LibSharedFrame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first block's pieces cover the accumulator. -/
theorem scover_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : cond0 i) (hc1 : ¬cond1 i)
    (x0 x1 x2 : Vec F S1x512x1024 .f32) (x3 : Vec F S1x1024x512 .f32) (y : S512x1024.Idx) :
    ∃ pc ∈ (kernelRun_A c i arg3 harg3 arg4 harg4 arg5 harg5 arg6 harg6 arg7 harg7 arg8 harg8 hc0 hc1 x0 x1 x2 x3).1, y ∈ pc.1.set :=
  View.cover_of_tiledL (kernelRun_A c i arg3 harg3 arg4 harg4 arg5 harg5 arg6 harg6 arg7 harg7 arg8 harg8 hc0 hc1 x0 x1 x2 x3).1 S512x1024.size (by sl_kernel_rfl) y

/-- What a first block leaves in the accumulator: its pieces read back. -/
def sout_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : cond0 i) (hc1 : ¬cond1 i)
    (x0 x1 x2 : Vec F S1x512x1024 .f32) (x3 : Vec F S1x1024x512 .f32) : Vec F S512x1024 .f32 :=
  VS.read (Elt F) (VS.writes (Elt F) VS.junk (kernelRun_A c i arg3 harg3 arg4 harg4 arg5 harg5 arg6 harg6 arg7 harg7 arg8 harg8 hc0 hc1 x0 x1 x2 x3).1)

/-- A middle block's piece covers the accumulator. -/
theorem scover_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : ¬cond1 i)
    (x0 x1 x2 : Vec F S1x512x1024 .f32) (x3 : Vec F S1x1024x512 .f32) (xs : Vec F S512x1024 .f32) (y : S512x1024.Idx) :
    ∃ pc ∈ (kernelRun_B c i arg3 harg3 arg4 harg4 arg5 harg5 arg6 harg6 arg7 harg7 arg8 harg8 hc0 hc1 x0 x1 x2 x3 xs).1, y ∈ pc.1.set :=
  View.cover_of_tiledL (kernelRun_B c i arg3 harg3 arg4 harg4 arg5 harg5 arg6 harg6 arg7 harg7 arg8 harg8 hc0 hc1 x0 x1 x2 x3 xs).1 S512x1024.size (by sl_kernel_rfl) y

/-- What a middle block leaves in the accumulator. -/
def sout_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : ¬cond1 i)
    (x0 x1 x2 : Vec F S1x512x1024 .f32) (x3 : Vec F S1x1024x512 .f32) (xs : Vec F S512x1024 .f32) : Vec F S512x1024 .f32 :=
  VS.read (Elt F) (VS.writes (Elt F) VS.junk (kernelRun_B c i arg3 harg3 arg4 harg4 arg5 harg5 arg6 harg6 arg7 harg7 arg8 harg8 hc0 hc1 x0 x1 x2 x3 xs).1)

/-- A last block's piece covers the output window's buffer, -/
theorem cover_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) (y : S1x512x1024.Idx) :
    ∃ pc ∈ (kernelRun_C c i arg3 harg3 arg4 harg4 arg5 harg5 arg6 harg6 arg7 harg7 arg8 harg8 hc0 hc1 x0 x1 x2 x3 xs).1, y ∈ pc.1.set :=
  View.cover_of_tiledL (kernelRun_C c i arg3 harg3 arg4 harg4 arg5 harg5 arg6 harg6 arg7 harg7 arg8 harg8 hc0 hc1 x0 x1 x2 x3 xs).1 S1x512x1024.size (by sl_kernel_rfl) y

/-- and this is what it leaves there. -/
def out_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) : Vec F S1x512x1024 .f32 :=
  VO.read (Elt F) (VO.writes (Elt F) VO.junk (kernelRun_C c i arg3 harg3 arg4 harg4 arg5 harg5 arg6 harg6 arg7 harg7 arg8 harg8 hc0 hc1 x0 x1 x2 x3 xs).1)

/-- A last block's piece covers the accumulator. -/
theorem scover_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) (y : S512x1024.Idx) :
    ∃ pc ∈ (kernelRun_C c i arg3 harg3 arg4 harg4 arg5 harg5 arg6 harg6 arg7 harg7 arg8 harg8 hc0 hc1 x0 x1 x2 x3 xs).2.1, y ∈ pc.1.set :=
  View.cover_of_tiledL (kernelRun_C c i arg3 harg3 arg4 harg4 arg5 harg5 arg6 harg6 arg7 harg7 arg8 harg8 hc0 hc1 x0 x1 x2 x3 xs).2.1 S512x1024.size (by sl_kernel_rfl) y

/-- What a last block leaves in the accumulator. -/
def sout_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) : Vec F S512x1024 .f32 :=
  VS.read (Elt F) (VS.writes (Elt F) VS.junk (kernelRun_C c i arg3 harg3 arg4 harg4 arg5 harg5 arg6 harg6 arg7 harg7 arg8 harg8 hc0 hc1 x0 x1 x2 x3 xs).2.1)

/-- Off the last block nothing is stored into the output window: a placeholder nothing consults (the window is then
    neither written back nor read at the next point). -/
def out_idle : Vec F S1x512x1024 .f32 := VO.read (Elt F) VO.junk

/-! ## What the output window and the accumulator hold after each point -/

/-- THE ACCUMULATION, by recursion on the point: the output window's buffer and the accumulator after the body at
    position `n` — the case the closed forms select, run at the point's memrefs and input blocks, over the accumulator
    the point before left. -/
def outsAt (c : Dev nD) : (n : ℕ) → n < cfg0.N → Vec F S1x512x1024 .f32 × Vec F S512x1024 .f32
  | 0, hn => (out_idle, sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out_idle, sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (out_idle, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- At a first block. -/
theorem outsAt_A (c : Dev nD) (t : Fin cfg0.N) (h0 : t.val % 8 = 0) (h1 : ¬t.val % 8 = 7) :
    outsAt m c t.val t.isLt = (out_idle, sout_A c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle block: over what the point before left. -/
theorem outsAt_B (c : Dev nD) (t : Fin cfg0.N) (h0 : ¬t.val % 8 = 0) (h1 : ¬t.val % 8 = 7) :
    outsAt m c t.val t.isLt = (out_idle, sout_B c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: over what the point before left. -/
theorem outsAt_C (c : Dev nD) (t : Fin cfg0.N) (h0 : ¬t.val % 8 = 0) (h1 : t.val % 8 = 7) :
    outsAt m c t.val t.isLt = (out_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the accumulator at anything; afterwards at what the point before
    left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare ((outsAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The pipeline's proof data -/

/-- The proof data of the one pipeline on core `c`: the arrays as the region finds them; after the body at point `t`
    each input's buffer at its block and the output's at `outsAt`; the invariant the accumulator's; nothing owed; the
    first weight's buffer dealt to its two windows in halves, every other input held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [live_in 0 (by decide) (grid0.coords t), after0]
theorem leaves_in1 (c : Dev nD) (t : Fin cfg0.N) : (dats m 0 c).leavesExact 1 t = owns (c : Thread nD τ) (ms1 t) fullShare (iblk m c 1 t) := by
  unfold Dat.leavesExact; rw [live_in 1 (by decide) (grid0.coords t), after1]
theorem leaves_in2 (c : Dev nD) (t : Fin cfg0.N) : (dats m 0 c).leavesExact 2 t = owns (c : Thread nD τ) (ms2 t) fullShare (iblk m c 2 t) := by
  unfold Dat.leavesExact; rw [live_in 2 (by decide) (grid0.coords t), after2]
theorem leaves_in3 (c : Dev nD) (t : Fin cfg0.N) : (dats m 0 c).leavesExact 3 t = owns (c : Thread nD τ) (ms3 t) fullShare (iblk m c 3 t) := by
  unfold Dat.leavesExact; rw [live_in 3 (by decide) (grid0.coords t), after3]

set_option maxHeartbeats 4800000 in
/-- The body at any point: the inputs' memrefs hold their blocks; the closed forms say which case the point is in; the
    invariant hands the body the accumulator at what the point before left (at anything before the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idle_out t (fun h => h1 ((hcond1 t).mp h))) (noFlush_out t (fun h => h1 ((hcond1 t).mp h)))]
    rw [outsAt_A m c t h0 h1]
    unfold sout_A; (try dsimp only)
    have hrun := (kernelRun_A c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t)).2
    have hfin : ∀ es, iprop(∃ f, scM.view.loc (c : Thread nD τ) ↦[scM.view.set]{fullShare} scM.view.writes (Elt F) f es) ⊢ (iprop(∃ f, scM.view.loc (c : Thread nD τ) ↦[scM.view.set]{fullShare} scM.view.writes (Elt F) f es) : sProp 𝕄) := fun _ => .rfl
    by_cases hz : t.val = 0
    · rw [PhiS_castSucc m c t, PhiS_zero m c _ _ hz, scopedRest_acc]
      iintro ⟨HS, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scover_A c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS]
      · unfold owns; iexists _; isplitr
        swap; · iexact HS
        ipureintro; exact View.read_writes_of_cover _ _ _ _ _ (scover_A c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms4 t) fullShare ((dats m 0 c).after 4 t) from by
        unfold Dat.leavesExact; rw [live_out t ((hcond1 t).mpr h1)], after4]
      rw [outsAt_C m c t h0 h1]
      unfold out_C sout_C; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRun_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS]
      · unfold owns; iexists _; isplitr
        swap; · iexact HS
        ipureintro; exact View.read_writes_of_cover _ _ _ _ _ (scover_C c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C c _ _ _ _ _ _ _ _ _ _ _ _ _ _ _ _ _ _ _ _)
    · rw [Dat.leavesExact_idle (dats m 0 c) 4 t (idle_out t (fun h => h1 ((hcond1 t).mp h))) (noFlush_out t (fun h => h1 ((hcond1 t).mp h)))]
      rw [outsAt_B m c t h0 h1]
      unfold sout_B; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRun_B c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scover_B c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hne, scopedRest_acc]
  iintro HS
  iexists _; iexact HS

/-! ## The arrays' buffers dealt among the windows -/

/-- The distinct buffers behind the windows' arrays, one by one. -/
theorem arrBufs_list (Φ : Ref sig .tc → sProp 𝕄) :
    bigSep (Finset.univ.image (Pipeline.arrRef spec0)) Φ = iprop(Φ main_arg0 ∗ Φ main_arg1 ∗ Φ main_arg2 ∗ Φ main_v0) :=
  bigSep_eq_bigSepL_of_eq [main_arg0, main_arg1, main_arg2, main_v0] (by decide) (by decide) Φ

/-- A window's array at the proof data's share and entry contents is its buffer's points-to at that share. -/
theorem arr_pt (c : Dev nD) (w : Fin cfg0.W) (q : PosShare TreeShare) (hq : (dats m 0 c).share w = q) :
    (((cfg0.win w).arr.view.loc (c.tc : Thread nD τ) ↦[(cfg0.win w).arr.view.set]{(dats m 0 c).share w} (dats m 0 c).arrAt w 0) : sProp 𝕄)
      = (((c.tc : Thread nD τ).loc (Pipeline.arrRef spec0 w)) ↦{q} V m c (Pipeline.arrRef spec0 w)) := by
  rw [(arr_whole0 w).set_eq_univ, hq]; rfl

/-- The four buffers behind the five windows' arrays, each whole at its entry contents, yield every window's array at
    its share: the first weight's buffer splits into the gate window's half and the up window's half. -/
theorem hsplit (c : Dev nD) : (Pipeline.arrBufs spec0 c (V m c) : sProp 𝕄) ⊢ (dats m 0 c).arrays ((dats m 0 c).arrAt · 0) := by
  unfold Pipeline.arrBufs Dat.arrays
  rw [arrBufs_list, bigSep_W0]
  rw [arr_pt m c 0 fullShare rfl, arr_pt m c 1 fullShare.left rfl, arr_pt m c 2 fullShare.right rfl, arr_pt m c 3 fullShare rfl,
    arr_pt m c 4 fullShare rfl]
  iintro ⟨H0, H1, H2, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  iexact H3

/-! ## The run -/

set_option backward.isDefEq.respectTransparency.types false in
/-- From any memory with zero counters every weakly fair execution of @main terminates, nothing faulting, and every
    window's array ends at what the proof data compute for it. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Cert.LibShared.θ_run_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- THE FRAME: the three argument arrays end unchanged (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

end Cert.KernelIdeal.Body

end
-- ==== Proof.KI.Pieces.lean ====
/-
  What the found pieces are, as values, for any float instance: the accumulator after a first block is this block's
  contribution over zeros, after any other block the contribution over the accumulator the block before left; at a last
  block the output window's buffer holds the accumulator just stored, re-laid with a leading unit axis. Every store
  covers its whole buffer and every load reads a whole buffer, so each value is its one covering store's payload.
-/
import proofs.«122314_j50105088475309_2_alg».proof.Proof.KI.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle block leaves the accumulator plus this block's contribution. -/
theorem sout_B_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : ¬cond1 i)
    (x0 x1 x2 : Vec F S1x512x1024 .f32) (x3 : Vec F S1x1024x512 .f32) (xs : Vec F S512x1024 .f32) :
    sout_B c i arg3 harg3 arg4 harg4 arg5 harg5 arg6 harg6 arg7 harg7 arg8 harg8 hc0 hc1 x0 x1 x2 x3 xs = k0_pay2 x0 x1 x2 x3 xs := by
  unfold sout_B
  rw [View.read_writes_eq_canon _ _ _ (scover_B c i arg3 harg3 arg4 harg4 arg5 harg5 arg6 harg6 arg7 harg7 arg8 harg8 hc0 hc1 x0 x1 x2 x3 xs)]
  unfold kernelRun_B
  dsimp only
  rw [View.canon_unit_zero hz2]
  simp only [View.readAt_eq_ld, harg3.read_unread, harg4.read_unread, harg5.read_unread, harg6.read_unread, harg8.read_unread,
    View.ld_unit_zero (S := S1x512x1024) hz3, View.ld_unit_zero (S := S1x1024x512) hz3, View.ld_unit_zero (S := S512x1024) hz2]

/-- A first block stores zeros, reads them back, and leaves zeros plus this block's contribution. -/
theorem sout_A_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : cond0 i) (hc1 : ¬cond1 i)
    (x0 x1 x2 : Vec F S1x512x1024 .f32) (x3 : Vec F S1x1024x512 .f32) :
    sout_A c i arg3 harg3 arg4 harg4 arg5 harg5 arg6 harg6 arg7 harg7 arg8 harg8 hc0 hc1 x0 x1 x2 x3 = k0_pay2 x0 x1 x2 x3 (k0_pay1 (F := F)) := by
  unfold sout_A
  rw [View.read_writes_eq_canon _ _ _ (scover_A c i arg3 harg3 arg4 harg4 arg5 harg5 arg6 harg6 arg7 harg7 arg8 harg8 hc0 hc1 x0 x1 x2 x3)]
  unfold kernelRun_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg8.read_unread,
    View.ld_unit_zero (S := S1x512x1024) hz3, View.ld_unit_zero (S := S1x1024x512) hz3, View.ld_unit_zero (S := S512x1024) hz2]

/-- A last block leaves the accumulator plus this block's contribution, -/
theorem sout_C_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) :
    sout_C c i arg3 harg3 arg4 harg4 arg5 harg5 arg6 harg6 arg7 harg7 arg8 harg8 hc0 hc1 x0 x1 x2 x3 xs = k0_pay2 x0 x1 x2 x3 xs := by
  unfold sout_C
  rw [View.read_writes_eq_canon _ _ _ (scover_C c i arg3 harg3 arg4 harg4 arg5 harg5 arg6 harg6 arg7 harg7 arg8 harg8 hc0 hc1 x0 x1 x2 x3 xs)]
  unfold kernelRun_C
  dsimp only
  sl_unfold_words
  rw [View.canon_unit_zero hz2]
  simp only [View.readAt_eq_ld, harg3.read_unread, harg4.read_unread, harg5.read_unread, harg6.read_unread, harg8.read_unread,
    View.ld_unit_zero (S := S1x512x1024) hz3, View.ld_unit_zero (S := S1x1024x512) hz3, View.ld_unit_zero (S := S512x1024) hz2]

/-- and copies it into the output window's buffer. -/
theorem out_C_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S512x1024 .f32) (harg8 : arg8.IsWhole) (hc0 : ¬cond0 i) (hc1 : cond1 i)
    (x0 x1 x2 : Vec F S1x512x1024 .f32) (x3 : Vec F S1x1024x512 .f32) (xs : Vec F S512x1024 .f32) :
    out_C c i arg3 harg3 arg4 harg4 arg5 harg5 arg6 harg6 arg7 harg7 arg8 harg8 hc0 hc1 x0 x1 x2 x3 xs = k0_pay3 (k0_pay2 x0 x1 x2 x3 xs) := by
  unfold out_C
  rw [View.read_writes_eq_canon _ _ _ (cover_C c i arg3 harg3 arg4 harg4 arg5 harg5 arg6 harg6 arg7 harg7 arg8 harg8 hc0 hc1 x0 x1 x2 x3 xs)]
  unfold kernelRun_C
  dsimp only
  sl_unfold_words
  rw [View.canon_unit_zero hz3, View.readCov_unit_zero (S := S512x1024) _ hz2]
  simp only [View.readAt_eq_ld, harg3.read_unread, harg4.read_unread, harg5.read_unread, harg6.read_unread, harg8.read_unread,
    View.ld_unit_zero (S := S1x512x1024) hz3, View.ld_unit_zero (S := S1x1024x512) hz3, View.ld_unit_zero (S := S512x1024) hz2]

end Cert.KernelIdeal.Body

end
-- ==== Proof.KI.Steps.lean ====
/-
  The accumulation's step equations, for any float instance: after a first block the accumulator is that block's
  contribution over zeros; after any other block, the contribution over what the point before left; at a last block the
  output window's buffer is the accumulator, re-laid with a leading unit axis.
-/
import proofs.«122314_j50105088475309_2_alg».proof.Proof.KI.Pieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- what a case leaves is used here only through its value lemma, never unfolded
attribute [local irreducible] sout_A sout_B sout_C out_C out_idle

/-- The accumulator after a first block: its contribution over zeros. -/
theorem acc_first (c : Dev nD) (t : Fin cfg0.N) (h0 : t.val % 8 = 0) (h1 : ¬t.val % 8 = 7) :
    (outsAt m c t.val t.isLt).2 = k0_pay2 (iblk m c 0 t) (iblk m c 1 t) (iblk m c 2 t) (iblk m c 3 t) (k0_pay1 (F := F)) :=
  (congrArg Prod.snd (outsAt_A m c t h0 h1)).trans
    (sout_A_eq (F := F) c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t))

/-- The accumulator after a middle block: its contribution over what the point before left. -/
theorem acc_mid (c : Dev nD) (t : Fin cfg0.N) (h0 : ¬t.val % 8 = 0) (h1 : ¬t.val % 8 = 7) :
    (outsAt m c t.val t.isLt).2 = k0_pay2 (iblk m c 0 t) (iblk m c 1 t) (iblk m c 2 t) (iblk m c 3 t) (outsAt m c (t.val - 1) (Nat.lt_of_le_of_lt (Nat.sub_le _ _) t.isLt)).2 :=
  (congrArg Prod.snd (outsAt_B m c t h0 h1)).trans
    (sout_B_eq (F := F) c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2)

/-- The accumulator after a last block: the same. -/
theorem acc_last (c : Dev nD) (t : Fin cfg0.N) (h0 : ¬t.val % 8 = 0) (h1 : t.val % 8 = 7) :
    (outsAt m c t.val t.isLt).2 = k0_pay2 (iblk m c 0 t) (iblk m c 1 t) (iblk m c 2 t) (iblk m c 3 t) (outsAt m c (t.val - 1) (Nat.lt_of_le_of_lt (Nat.sub_le _ _) t.isLt)).2 :=
  (congrArg Prod.snd (outsAt_C m c t h0 h1)).trans
    (sout_C_eq (F := F) c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2)

/-- At a last block the output window's buffer is the accumulator just stored, re-laid. -/
theorem out_last (c : Dev nD) (t : Fin cfg0.N) (h0 : ¬t.val % 8 = 0) (h1 : t.val % 8 = 7) :
    (outsAt m c t.val t.isLt).1 = k0_pay3 (k0_pay2 (iblk m c 0 t) (iblk m c 1 t) (iblk m c 2 t) (iblk m c 3 t) (outsAt m c (t.val - 1) (Nat.lt_of_le_of_lt (Nat.sub_le _ _) t.isLt)).2) :=
  (congrArg Prod.fst (outsAt_C m c t h0 h1)).trans
    (out_C_eq (F := F) c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2)

end Cert.KernelIdeal.Body

end
-- ==== Proof.Spec.lean ====
/-
  The function both programs compute, as ONE function of the three argument arrays over the extended reals.

  For expert `e`, token `t` and hidden unit `h`:

      out[e, t, h] = Σ_{i < 4096} ( g · σ(g) · u ) · w_down[e, h, i]
      where g = Σ_{k < 1024} x[e, t, k] · w_gate_up[e, i, k]            (row i of the first half: the gate)
            u = Σ_{k < 1024} x[e, t, k] · w_gate_up[e, 4096 + i, k]     (row i of the second half: the up projection)
            σ(g) = 1 / (1 + exp (−g))                                   (the logistic function)

  Every product is written with the activation on the left and the weight on the right, and every sum is a finite
  sum in the additive commutative monoid of the extended reals, so regrouping a sum needs no finiteness.
-/
import Idealize.ShloMosaic.PureOps.Ideal
import Idealize.ShloMosaic.Lib.ValueIdx

noncomputable section

open scoped BigOperators

namespace Cert.Spec

open Idealize.ShloMosaic Idealize.ShloMosaic.ValueIdx

/-- The token array's shape, [expert, token, hidden]. -/
abbrev SX : Shape := ⟨3, ![8, 2048, 1024]⟩
/-- The first weight's shape, [expert, gate rows then up rows, hidden]. -/
abbrev SW1 : Shape := ⟨3, ![8, 8192, 1024]⟩
/-- The second weight's shape, [expert, hidden, intermediate]. -/
abbrev SW2 : Shape := ⟨3, ![8, 1024, 4096]⟩

/-- Row `i` of the gate half of the first weight. -/
def gateRow (i : Fin 4096) : Fin 8192 := ⟨i.val, by have := i.isLt; omega⟩
/-- Row `i` of the up half of the first weight: 4096 rows further down. -/
def upRow (i : Fin 4096) : Fin 8192 := ⟨i.val + 4096, by have := i.isLt; omega⟩

/-- Token `t` of expert `e` against row `o` of that expert's first weight: a dot product over the hidden axis. -/
def proj (x : SX.Idx → EReal) (w1 : SW1.Idx → EReal) (e : Fin 8) (t : Fin 2048) (o : Fin 8192) : EReal :=
  ∑ k : Fin 1024, x (ix3 e t k) * w1 (ix3 e o k)

/-- The gated activation of intermediate unit `i`: (g · σ(g)) · u. -/
def act (x : SX.Idx → EReal) (w1 : SW1.Idx → EReal) (e : Fin 8) (t : Fin 2048) (i : Fin 4096) : EReal :=
  (proj x w1 e t (gateRow i) * Ideal.logistic (proj x w1 e t (gateRow i))) * proj x w1 e t (upRow i)

/-- The result array: the activations against the rows of the second weight, summed over the intermediate axis. -/
def G (x : SX.Idx → EReal) (w1 : SW1.Idx → EReal) (w2 : SW2.Idx → EReal) : SX.Idx → EReal :=
  fun j => ∑ i : Fin 4096, act x w1 (j 0) (j 1) i * w2 (ix3 (j 0) (j 2) i)

end Cert.Spec

end
-- ==== Proof.KI.Blocks.lean ====
/-
  The windows' blocks read off the argument arrays, at the ideal instance.

  Grid point `t` is expert `t / 32`, token block `(t / 8) % 4`, intermediate block `t % 8`. At that point the token
  window holds rows `512 · ((t / 8) % 4) …` of the expert's tokens; the gate window rows `512 · (t % 8) …` of the first
  weight and the up window the rows 4096 further down; the down window columns `512 · (t % 8) …` of the second weight;
  the output window rows `512 · ((t / 8) % 4) …` of the expert's result. A block's coordinate is always the block
  index times the block's extent plus the coordinate inside the block.
-/
import proofs.«122314_j50105088475309_2_alg».proof.Proof.KI.Frame
import proofs.«122314_j50105088475309_2_alg».proof.Proof.Spec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open Cert.Spec

variable (m : (ℓ : Loc nD τ sig) → Buf (Elt Ideal) ℓ) (ρ : Dev nD → PrngReg)

/-- The printed index maps in closed form, decided over the grid's 256 points. -/
theorem idx_facts : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = t.val % 8 ∧ win0_1.index t (2 : Fin 3) = 0
    ∧ win0_2.index t (0 : Fin 3) = t.val / 32 ∧ win0_2.index t (1 : Fin 3) = t.val % 8 + 8 ∧ win0_2.index t (2 : Fin 3) = 0
    ∧ win0_3.index t (0 : Fin 3) = t.val / 32 ∧ win0_3.index t (1 : Fin 3) = 0 ∧ win0_3.index t (2 : Fin 3) = t.val % 8
    ∧ win0_4.index t (0 : Fin 3) = t.val / 32 ∧ win0_4.index t (1 : Fin 3) = t.val / 8 % 4 ∧ win0_4.index t (2 : Fin 3) = 0 :=
  (by decide +kernel : ∀ t : Fin grid0.N, _)

/-- The token window's entry (r, k) at point `t` is the token array's entry (e, tok, k). -/
theorem iblk0_at (c : Dev nD) (t : Fin cfg0.N) (e : Fin 8) (tok : Fin 2048) (r : Fin 512)
    (he : e.val = t.val / 32) (htok : tok.val = t.val / 8 % 4 * 512 + r.val) (k : Fin 1024) :
    iblk m c 0 t (ix3 0 r k) = m ((c : Thread nD τ).loc main_arg0) (ix3 e tok k) := by
  obtain ⟨e0, e1, e2, -⟩ := idx_facts t
  unfold iblk
  rw [View.read_apply]
  show m ((c : Thread nD τ).loc main_arg0) _ = m ((c : Thread nD τ).loc main_arg0) _
  congr 1
  funext a; apply Fin.ext
  match a with
  | ⟨0, _⟩ => show win0_0.index t (0 : Fin 3) * 1 + 1 * 0 = e.val; omega
  | ⟨1, _⟩ => show win0_0.index t (1 : Fin 3) * 512 + 1 * r.val = tok.val; omega
  | ⟨2, _⟩ => show win0_0.index t (2 : Fin 3) * 1024 + 1 * k.val = k.val; omega

/-- The gate window's entry (i, k) at point `t` is the first weight's entry (e, gate row of unit 512 b + i, k). -/
theorem iblk1_at (c : Dev nD) (t : Fin cfg0.N) (e : Fin 8) (b : Fin 8) (i : Fin 512)
    (he : e.val = t.val / 32) (hb : b.val = t.val % 8) (k : Fin 1024) :
    iblk m c 1 t (ix3 0 i k) = m ((c : Thread nD τ).loc main_arg1)
      (ix3 e (gateRow ⟨b.val * 512 + i.val, by have := b.isLt; have := i.isLt; omega⟩) k) := by
  obtain ⟨-, -, -, e0, e1, e2, -⟩ := idx_facts t
  unfold iblk
  rw [View.read_apply]
  show m ((c : Thread nD τ).loc main_arg1) _ = m ((c : Thread nD τ).loc main_arg1) _
  congr 1
  funext a; apply Fin.ext
  match a with
  | ⟨0, _⟩ => show win0_1.index t (0 : Fin 3) * 1 + 1 * 0 = e.val; omega
  | ⟨1, _⟩ => show win0_1.index t (1 : Fin 3) * 512 + 1 * i.val = b.val * 512 + i.val; omega
  | ⟨2, _⟩ => show win0_1.index t (2 : Fin 3) * 1024 + 1 * k.val = k.val; omega

/-- The up window's entry (i, k) at point `t` is the first weight's entry (e, up row of unit 512 b + i, k). -/
theorem iblk2_at (c : Dev nD) (t : Fin cfg0.N) (e : Fin 8) (b : Fin 8) (i : Fin 512)
    (he : e.val = t.val / 32) (hb : b.val = t.val % 8) (k : Fin 1024) :
    iblk m c 2 t (ix3 0 i k) = m ((c : Thread nD τ).loc main_arg1)
      (ix3 e (upRow ⟨b.val * 512 + i.val, by have := b.isLt; have := i.isLt; omega⟩) k) := by
  obtain ⟨-, -, -, -, -, -, e0, e1, e2, -⟩ := idx_facts t
  unfold iblk
  rw [View.read_apply]
  show m ((c : Thread nD τ).loc main_arg1) _ = m ((c : Thread nD τ).loc main_arg1) _
  congr 1
  funext a; apply Fin.ext
  match a with
  | ⟨0, _⟩ => show win0_2.index t (0 : Fin 3) * 1 + 1 * 0 = e.val; omega
  | ⟨1, _⟩ => show win0_2.index t (1 : Fin 3) * 512 + 1 * i.val = b.val * 512 + i.val + 4096; omega
  | ⟨2, _⟩ => show win0_2.index t (2 : Fin 3) * 1024 + 1 * k.val = k.val; omega

/-- The down window's entry (h, i) at point `t` is the second weight's entry (e, h, unit 512 b + i). -/
theorem iblk3_at (c : Dev nD) (t : Fin cfg0.N) (e : Fin 8) (b : Fin 8) (h : Fin 1024)
    (he : e.val = t.val / 32) (hb : b.val = t.val % 8) (i : Fin 512) :
    iblk m c 3 t (ix3 0 h i) = m ((c : Thread nD τ).loc main_arg2)
      (ix3 e h ⟨b.val * 512 + i.val, by have := b.isLt; have := i.isLt; omega⟩) := by
  obtain ⟨-, -, -, -, -, -, -, -, -, e0, e1, e2, -⟩ := idx_facts t
  unfold iblk
  rw [View.read_apply]
  show m ((c : Thread nD τ).loc main_arg2) _ = m ((c : Thread nD τ).loc main_arg2) _
  congr 1
  funext a; apply Fin.ext
  match a with
  | ⟨0, _⟩ => show win0_3.index t (0 : Fin 3) * 1 + 1 * 0 = e.val; omega
  | ⟨1, _⟩ => show win0_3.index t (1 : Fin 3) * 1024 + 1 * h.val = h.val; omega
  | ⟨2, _⟩ => show win0_3.index t (2 : Fin 3) * 512 + 1 * i.val = b.val * 512 + i.val; omega

/-- An index of the result array is in point `t`'s output block iff each coordinate is in the block's range. -/
theorem mem_blk4 (t : Fin cfg0.N) (i : S8x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v0).slice (win0_4.rect t)).set ↔ _
  rw [View.set_slice_whole, Rect.mem_set_unit]
  exact Iff.rfl

/-- Every index of the result array is in the output block of a point that writes it back: the last block of its
    expert's and token block's reduction. -/
theorem cover4 (i : S8x2048x1024.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  have hN : cfg0.N = 256 := N_0
  refine ⟨⟨32 * (i 0).val + 8 * ((i 1).val / 512) + 7, by omega⟩, (flush0_4 _).mpr (by show (32 * (i 0).val + 8 * ((i 1).val / 512) + 7) % 8 = 7; omega), ?_⟩
  rw [mem_blk4]
  obtain ⟨-, -, -, -, -, -, -, -, -, -, -, -, e0, e1, e2⟩ := idx_facts ⟨32 * (i 0).val + 8 * ((i 1).val / 512) + 7, by omega⟩
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 512 ≤ (i 1).val ∧ (i 1).val < win0_4.index _ (1 : Fin 3) * 512 + 512; rw [e1]; dsimp only; omega
  | ⟨2, _⟩ => show win0_4.index _ (2 : Fin 3) * 1024 ≤ (i 2).val ∧ (i 2).val < win0_4.index _ (2 : Fin 3) * 1024 + 1024; rw [e2]; omega

end Cert.KernelIdeal.KValue

end
-- ==== Proof.KI.Payload.lean ====
/-
  The kernel body's three stored values, read at an index over the extended reals.

  * The first store of a row of grid points writes zero everywhere.
  * Every grid point adds its contribution to the accumulator: with x the token block, wg and wu the gate and up
    weight blocks and wd the down weight block, the entry (r, h) becomes
        acc[r, h] + Σ_{i < 512} ((g_i · σ(g_i)) · u_i) · wd[0, h, i],
        g_i = Σ_{k < 1024} x[0, r, k] · wg[0, i, k],   u_i = Σ_{k < 1024} x[0, r, k] · wu[0, i, k],
    σ the logistic function. Each of the three matrix products contracts the LAST axis of both operands and starts
    from a zero accumulator, so it is just the sum of the products; dropping the leading unit axis of a block reads the
    block at leading coordinate 0; the conversion to a narrower float format is the identity on the extended reals.
  * The last store writes the accumulator with a leading unit axis added.
-/
import proofs.«122314_j50105088475309_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.Payload

open Cert.KernelIdeal Cert.KernelIdeal.Gen Idealize.ShloMosaic Idealize.ShloMosaic.ValueIdx

/-- The operand indices of this product at result index j and contraction index q: the left operand reads j's row and
    q, the right operand reads j's column and q. -/
theorem lhs1_0 (j : S512x512.Idx) (q : dot_S512x1024_S512x1024_S512x512_1_1_0_0_n_n.contr.Idx) : (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem lhs1_1 (j : S512x512.Idx) (q : dot_S512x1024_S512x1024_S512x512_1_1_0_0_n_n.contr.Idx) : (dot_S512x1024_S512x1024_S512x512_1_1_0_0_n_n.lhsIdx j q 1).val = (q ⟨0, by decide⟩).val :=
  dot_S512x1024_S512x1024_S512x512_1_1_0_0_n_n.lhsIdx_val_of_single rfl j q
theorem rhs1_0 (j : S512x512.Idx) (q : dot_S512x1024_S512x1024_S512x512_1_1_0_0_n_n.contr.Idx) : (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
theorem rhs1_1 (j : S512x512.Idx) (q : dot_S512x1024_S512x1024_S512x512_1_1_0_0_n_n.contr.Idx) : (dot_S512x1024_S512x1024_S512x512_1_1_0_0_n_n.rhsIdx j q 1).val = (q ⟨0, by decide⟩).val :=
  dot_S512x1024_S512x1024_S512x512_1_1_0_0_n_n.rhsIdx_val_of_single rfl j q

/-- A [512, 1024] by [512, 1024] product contracting the last axis of both, into zero: entry (r, i) is the sum over
    k of a[r, k] · b[i, k]. -/
theorem mm1_apply (a b : FVec Ideal S512x1024 .bf16) (r i : Fin 512) :
    FloatOps.matmul dot_S512x1024_S512x1024_S512x512_1_1_0_0_n_n none a b
        (constant (F := Ideal) S512x512 .f32 0x00000000#32) (ix2 r i)
      = ∑ k : Fin 1024, a (ix2 r k) * b (ix2 i k) := by
  refine (Ideal.matmul_constant_zero_apply dot_S512x1024_S512x1024_S512x512_1_1_0_0_n_n none a b (ix2 r i)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r i)
      ((contrEquiv1 dot_S512x1024_S512x1024_S512x512_1_1_0_0_n_n 1024 rfl rfl).symm k) = ix2 r k :=
    funext fun c => Fin.ext (by
      match c with
      | ⟨0, _⟩ => exact lhs1_0 _ _
      | ⟨1, _⟩ => exact (lhs1_1 _ _).trans hk)
  have er : dot_S512x1024_S512x1024_S512x512_1_1_0_0_n_n.rhsIdx (ix2 r i)
      ((contrEquiv1 dot_S512x1024_S512x1024_S512x512_1_1_0_0_n_n 1024 rfl rfl).symm k) = ix2 i k :=
    funext fun c => Fin.ext (by
      match c with
      | ⟨0, _⟩ => exact rhs1_0 _ _
      | ⟨1, _⟩ => exact (rhs1_1 _ _).trans hk)
  rw [el, er]

/-- The operand indices of this product at result index j and contraction index q: the left operand reads j's row and
    q, the right operand reads j's column and q. -/
theorem lhs2_0 (j : S512x1024.Idx) (q : dot_S512x512_S1024x512_S512x1024_1_1_0_0_n_n.contr.Idx) : (dot_S512x512_S1024x512_S512x1024_1_1_0_0_n_n.lhsIdx j q 0).val = (j 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
theorem lhs2_1 (j : S512x1024.Idx) (q : dot_S512x512_S1024x512_S512x1024_1_1_0_0_n_n.contr.Idx) : (dot_S512x512_S1024x512_S512x1024_1_1_0_0_n_n.lhsIdx j q 1).val = (q ⟨0, by decide⟩).val :=
  dot_S512x512_S1024x512_S512x1024_1_1_0_0_n_n.lhsIdx_val_of_single rfl j q
theorem rhs2_0 (j : S512x1024.Idx) (q : dot_S512x512_S1024x512_S512x1024_1_1_0_0_n_n.contr.Idx) : (dot_S512x512_S1024x512_S512x1024_1_1_0_0_n_n.rhsIdx j q 0).val = (j 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl
theorem rhs2_1 (j : S512x1024.Idx) (q : dot_S512x512_S1024x512_S512x1024_1_1_0_0_n_n.contr.Idx) : (dot_S512x512_S1024x512_S512x1024_1_1_0_0_n_n.rhsIdx j q 1).val = (q ⟨0, by decide⟩).val :=
  dot_S512x512_S1024x512_S512x1024_1_1_0_0_n_n.rhsIdx_val_of_single rfl j q

/-- A [512, 512] by [1024, 512] product contracting the last axis of both, into zero: entry (r, h) is the sum over
    i of a[r, i] · b[h, i]. -/
theorem mm2_apply (a : FVec Ideal S512x512 .bf16) (b : FVec Ideal S1024x512 .bf16) (r : Fin 512) (h : Fin 1024) :
    FloatOps.matmul dot_S512x512_S1024x512_S512x1024_1_1_0_0_n_n none a b
        (constant (F := Ideal) S512x1024 .f32 0x00000000#32) (ix2 r h)
      = ∑ i : Fin 512, a (ix2 r i) * b (ix2 h i) := by
  refine (Ideal.matmul_constant_zero_apply dot_S512x512_S1024x512_S512x1024_1_1_0_0_n_n none a b (ix2 r h)).trans ?_
  rw [← Equiv.sum_comp (contrEquiv1 dot_S512x512_S1024x512_S512x1024_1_1_0_0_n_n 512 rfl rfl).symm]
  refine Finset.sum_congr rfl fun i _ => ?_
  have hi := contrEquiv1_symm_val dot_S512x512_S1024x512_S512x1024_1_1_0_0_n_n 512 rfl rfl i
  have el : dot_S512x512_S1024x512_S512x1024_1_1_0_0_n_n.lhsIdx (ix2 r h)
      ((contrEquiv1 dot_S512x512_S1024x512_S512x1024_1_1_0_0_n_n 512 rfl rfl).symm i) = ix2 r i :=
    funext fun c => Fin.ext (by
      match c with
      | ⟨0, _⟩ => exact lhs2_0 _ _
      | ⟨1, _⟩ => exact (lhs2_1 _ _).trans hi)
  have er : dot_S512x512_S1024x512_S512x1024_1_1_0_0_n_n.rhsIdx (ix2 r h)
      ((contrEquiv1 dot_S512x512_S1024x512_S512x1024_1_1_0_0_n_n 512 rfl rfl).symm i) = ix2 h i :=
    funext fun c => Fin.ext (by
      match c with
      | ⟨0, _⟩ => exact rhs2_0 _ _
      | ⟨1, _⟩ => exact (rhs2_1 _ _).trans hi)
  rw [el, er]

/-- A block with its leading unit axis dropped and its format narrowed reads the block at leading coordinate 0. -/
theorem cast1_apply (x : FVec Ideal S1x512x1024 .f32) (r : Fin 512) (k : Fin 1024) :
    truncf .bf16 (shapeCast S512x1024 x shapeCasts_S1x512x1024_S512x1024) bitsLt_bf16_f32 (ix2 r k) = x (ix3 0 r k) :=
  (truncf_apply (ψ := .bf16) (φ := .f32) _ bitsLt_bf16_f32 _).trans (shapeCast_1ab_ab_apply x shapeCasts_S1x512x1024_S512x1024 r k)

/-- The same for the down weight's [1, 1024, 512] block. -/
theorem cast2_apply (x : FVec Ideal S1x1024x512 .f32) (h : Fin 1024) (i : Fin 512) :
    truncf .bf16 (shapeCast S1024x512 x shapeCasts_S1x1024x512_S1024x512) bitsLt_bf16_f32 (ix2 h i) = x (ix3 0 h i) :=
  (truncf_apply (ψ := .bf16) (φ := .f32) _ bitsLt_bf16_f32 _).trans (shapeCast_1ab_ab_apply x shapeCasts_S1x1024x512_S1024x512 h i)

/-- Token row r of the token block against row i of a weight block: the projection's entry (r, i). -/
theorem proj_apply (x w : FVec Ideal S1x512x1024 .f32) (r i : Fin 512) :
    FloatOps.matmul dot_S512x1024_S512x1024_S512x512_1_1_0_0_n_n none
        (truncf .bf16 (shapeCast S512x1024 x shapeCasts_S1x512x1024_S512x1024) bitsLt_bf16_f32)
        (truncf .bf16 (shapeCast S512x1024 w shapeCasts_S1x512x1024_S512x1024) bitsLt_bf16_f32)
        (constant (F := Ideal) S512x512 .f32 0x00000000#32) (ix2 r i)
      = ∑ k : Fin 1024, x (ix3 0 r k) * w (ix3 0 i k) :=
  (mm1_apply _ _ r i).trans (Finset.sum_congr rfl fun k _ => by rw [cast1_apply, cast1_apply])

/-- The first store of a row of grid points: zero everywhere. -/
theorem pay1_apply (j : S512x1024.Idx) : k0_pay1 (F := Ideal) j = 0 := by
  unfold k0_pay1
  refine (congrFun (shapeCast_self _ shapeCasts_S512x1024_S512x1024) j).trans ?_
  exact Ideal.ofBits_zero_f32

/-- A grid point's store: the accumulator's entry plus the sum over the 512 intermediate units of this point of
    ((g · σ(g)) · u) times the down weight's entry. -/
theorem pay2_apply (x0 x1 x2 : Vec Ideal S1x512x1024 .f32) (x3 : Vec Ideal S1x1024x512 .f32) (xs : Vec Ideal S512x1024 .f32)
    (r : Fin 512) (h : Fin 1024) :
    k0_pay2 (F := Ideal) x0 x1 x2 x3 xs (ix2 r h)
      = xs (ix2 r h) + ∑ i : Fin 512,
          (((∑ k : Fin 1024, x0 (ix3 0 r k) * x1 (ix3 0 i k)) * Ideal.logistic (∑ k : Fin 1024, x0 (ix3 0 r k) * x1 (ix3 0 i k)))
            * (∑ k : Fin 1024, x0 (ix3 0 r k) * x2 (ix3 0 i k))) * x3 (ix3 0 h i) := by
  unfold k0_pay2
  refine (congrFun (shapeCast_self _ shapeCasts_S512x1024_S512x1024) (ix2 r h)).trans ?_
  refine (addf_apply _ _ _).trans ?_
  refine congrArg (xs (ix2 r h) + ·) ?_
  refine (mm2_apply _ _ r h).trans ?_
  refine Finset.sum_congr rfl fun i _ => ?_
  refine congrArg₂ (· * ·) ?_ (cast2_apply x3 h i)
  refine (truncf_apply (ψ := .bf16) (φ := .f32) _ bitsLt_bf16_f32 _).trans ?_
  refine (mulf_apply _ _ _).trans ?_
  refine congrArg₂ (· * ·) ?_ (proj_apply x0 x2 r i)
  refine (mulf_apply _ _ _).trans ?_
  exact congrArg (fun z => z * Ideal.logistic z) (proj_apply x0 x1 r i)

/-- The last store: the accumulator with a leading unit axis added. -/
theorem pay3_apply (v : Vec Ideal S512x1024 .f32) (r : Fin 512) (h : Fin 1024) :
    k0_pay3 (F := Ideal) v (ix3 0 r h) = v (ix2 r h) :=
  shapeCast_ab_1ab_apply v shapeCasts_S512x1024_S1x512x1024 0 r h

end Cert.KernelIdeal.Payload

end
-- ==== Proof.SumBlocks.lean ====
/-
  Two regroupings of a finite sum in an additive commutative monoid. Neither uses cancellation, subtraction or any
  finiteness of the summands: only that addition is commutative and associative with zero as its unit.

  * A sum over 4096 indices is the sum, over 8 consecutive blocks of 512 indices, of the sums inside the blocks:
    the index b · 512 + i, with b < 8 and i < 512, runs through every index below 4096 exactly once.
  * An accumulator that starts as zero plus the first contribution, and to which each of the next seven contributions
    is added in turn, ends as the sum of the eight contributions.
-/
import Mathlib.Algebra.BigOperators.Fin
import Mathlib.Data.Fintype.BigOperators
import Mathlib.Logic.Equiv.Fin.Basic

open scoped BigOperators

namespace Cert.Spec.Blocks

/-- The sum over the blocks of the sums inside the blocks is the sum over all indices: the pair (b, i) and the index
    b · 512 + i correspond one to one. -/
theorem sum_blocks {M : Type*} [AddCommMonoid M] (f : Fin 4096 → M) :
    (∑ b : Fin 8, ∑ i : Fin 512, f ⟨b.val * 512 + i.val, by have := b.isLt; have := i.isLt; omega⟩) = ∑ i : Fin 4096, f i := by
  rw [← Fintype.sum_prod_type' (fun (b : Fin 8) (i : Fin 512) =>
    f ⟨b.val * 512 + i.val, by have := b.isLt; have := i.isLt; omega⟩)]
  refine Fintype.sum_equiv (finProdFinEquiv (m := 8) (n := 512)) _ _ fun p => ?_
  refine congrArg f (Fin.ext ?_)
  show p.1.val * 512 + p.2.val = p.2.val + 512 * p.1.val
  omega

/-- The accumulator after step k is the sum of the first k + 1 contributions, by induction on k; at k = 7 that is
    the sum of all eight. -/
theorem fold_blocks {M : Type*} [AddCommMonoid M] (d acc : ℕ → M) (h0 : acc 0 = 0 + d 0)
    (hs : ∀ k, k < 7 → acc (k + 1) = acc k + d (k + 1)) : acc 7 = ∑ b : Fin 8, d b.val := by
  have key : ∀ k, k ≤ 7 → acc k = ∑ b ∈ Finset.range (k + 1), d b := by
    intro k
    induction k with
    | zero => intro _; rw [h0, zero_add, Finset.sum_range_one]
    | succ k ih =>
      intro hk
      rw [hs k (by omega), ih (by omega), Finset.sum_range_succ _ (k + 1)]
  rw [key 7 le_rfl, Fin.sum_univ_eq_sum_range (fun b => d b) 8]

end Cert.Spec.Blocks
-- ==== Proof.KI.Value.lean ====
/-
  The fused kernel's result array, at the ideal instance, is the specification `G` of the three argument arrays.

  One grid point contributes, to entry (r, h) of the accumulator, the sum over its 512 intermediate units of
  (g · σ(g) · u) · w_down, read off the point's four input blocks. Over the eight blocks of a reduction the accumulator
  goes 0 + d₀, then + d₁, …, + d₇, which in the additive commutative monoid of the extended reals is the sum of the eight
  contributions; the eight blocks of 512 units are the 4096 units of the specification's sum. The point that writes a
  block of the result back is the reduction's last, and the blocks written back tile the result array.
-/
import proofs.«122314_j50105088475309_2_alg».proof.Proof.KI.Steps
import proofs.«122314_j50105088475309_2_alg».proof.Proof.KI.Blocks
import proofs.«122314_j50105088475309_2_alg».proof.Proof.KI.Payload
import proofs.«122314_j50105088475309_2_alg».proof.Proof.SumBlocks

set_option maxRecDepth 16384

noncomputable section

open scoped BigOperators

namespace Cert.KernelIdeal.KValue

open Cert.KernelIdeal Cert.KernelIdeal.Gen Cert.KernelIdeal.Body Cert.KernelIdeal.Payload
open Idealize.ShloMosaic Idealize.ShloMosaic.TcCoe Idealize.SL.Sem Idealize.ShloMosaic.ValueIdx
open Idealize.ShloMosaic.Pipeline (Dat)
open Cert.Spec Cert.Spec.Blocks

variable (m : (ℓ : Loc nD τ sig) → Buf (Elt Ideal) ℓ) (ρ : Dev nD → PrngReg)

-- the accumulation and the cases' values are used through their equations only
attribute [local irreducible] outsAt

/-- The four input blocks at a point, as vectors of the literal block shapes. -/
abbrev B0 (c : Dev nD) (t : Fin cfg0.N) : Vec Ideal S1x512x1024 .f32 := iblk m c 0 t
abbrev B1 (c : Dev nD) (t : Fin cfg0.N) : Vec Ideal S1x512x1024 .f32 := iblk m c 1 t
abbrev B2 (c : Dev nD) (t : Fin cfg0.N) : Vec Ideal S1x512x1024 .f32 := iblk m c 2 t
abbrev B3 (c : Dev nD) (t : Fin cfg0.N) : Vec Ideal S1x1024x512 .f32 := iblk m c 3 t

/-- One grid point's contribution to entry (r, h) of the accumulator. -/
def contrib (c : Dev nD) (t : Fin cfg0.N) (r : Fin 512) (h : Fin 1024) : EReal :=
  ∑ i : Fin 512, (((∑ k : Fin 1024, B0 m c t (ix3 0 r k) * B1 m c t (ix3 0 i k)) * Ideal.logistic (∑ k : Fin 1024, B0 m c t (ix3 0 r k) * B1 m c t (ix3 0 i k))) * (∑ k : Fin 1024, B0 m c t (ix3 0 r k) * B2 m c t (ix3 0 i k))) * B3 m c t (ix3 0 h i)

/-- After a first block the accumulator's entry is zero plus the block's contribution. -/
theorem entry_first (c : Dev nD) (t : Fin cfg0.N) (h0 : t.val % 8 = 0) (r : Fin 512) (h : Fin 1024) :
    (outsAt m c t.val t.isLt).2 (ix2 r h) = 0 + contrib m c t r h := by
  have h1 : ¬t.val % 8 = 7 := by omega
  rw [acc_first m c t h0 h1]
  refine (pay2_apply (B0 m c t) (B1 m c t) (B2 m c t) (B3 m c t) (k0_pay1 (F := Ideal)) r h).trans ?_
  rw [pay1_apply]
  rfl

/-- After any other block it is the entry the point before left plus the block's contribution. -/
theorem entry_step (c : Dev nD) (t : Fin cfg0.N) (h0 : ¬t.val % 8 = 0) (r : Fin 512) (h : Fin 1024) :
    (outsAt m c t.val t.isLt).2 (ix2 r h)
      = (outsAt m c (t.val - 1) (Nat.lt_of_le_of_lt (Nat.sub_le _ _) t.isLt)).2 (ix2 r h) + contrib m c t r h := by
  by_cases h1 : t.val % 8 = 7
  · rw [acc_last m c t h0 h1]
    exact pay2_apply (B0 m c t) (B1 m c t) (B2 m c t) (B3 m c t) _ r h
  · rw [acc_mid m c t h0 h1]
    exact pay2_apply (B0 m c t) (B1 m c t) (B2 m c t) (B3 m c t) _ r h

/-- The accumulator's entry after the last block of reduction `q` is the sum of the eight blocks' contributions. -/
theorem entry_closed (c : Dev nD) (q : ℕ) (hq : q < 32) (r : Fin 512) (h : Fin 1024)
    (h7 : 8 * q + 7 < cfg0.N) (hb : ∀ b : Fin 8, 8 * q + b.val < cfg0.N) :
    (outsAt m c (8 * q + 7) h7).2 (ix2 r h) = ∑ b : Fin 8, contrib m c ⟨8 * q + b.val, hb b⟩ r h := by
  have hN : cfg0.N = 256 := N_0
  have key := fold_blocks
    (fun k => if hk : 8 * q + k < cfg0.N then contrib m c ⟨8 * q + k, hk⟩ r h else 0)
    (fun k => if hk : 8 * q + k < cfg0.N then (outsAt m c (8 * q + k) hk).2 (ix2 r h) else 0)
    (by
      have hk : 8 * q + 0 < cfg0.N := by omega
      show (if hk : 8 * q + 0 < cfg0.N then (outsAt m c (8 * q + 0) hk).2 (ix2 r h) else 0)
        = 0 + (if hk : 8 * q + 0 < cfg0.N then contrib m c ⟨8 * q + 0, hk⟩ r h else 0)
      rw [dif_pos hk, dif_pos hk]
      exact entry_first m c ⟨8 * q + 0, hk⟩ (by show (8 * q + 0) % 8 = 0; omega) r h)
    (by
      intro k hk7
      have hk : 8 * q + k < cfg0.N := by omega
      have hk1 : 8 * q + (k + 1) < cfg0.N := by omega
      show (if hk : 8 * q + (k + 1) < cfg0.N then (outsAt m c (8 * q + (k + 1)) hk).2 (ix2 r h) else 0)
        = (if hk : 8 * q + k < cfg0.N then (outsAt m c (8 * q + k) hk).2 (ix2 r h) else 0)
          + (if hk : 8 * q + (k + 1) < cfg0.N then contrib m c ⟨8 * q + (k + 1), hk⟩ r h else 0)
      rw [dif_pos hk1, dif_pos hk, dif_pos hk1]
      exact entry_step m c ⟨8 * q + (k + 1), hk1⟩ (by show ¬(8 * q + (k + 1)) % 8 = 0; omega) r h)
  have e7 : (if hk : 8 * q + 7 < cfg0.N then (outsAt m c (8 * q + 7) hk).2 (ix2 r h) else 0)
      = (outsAt m c (8 * q + 7) h7).2 (ix2 r h) := dif_pos h7
  rw [← e7]
  refine key.trans (Finset.sum_congr rfl fun b _ => ?_)
  exact dif_pos (hb b)

/-- A point's contribution in the specification's terms: block `b` of the gated activations of token `tok` of expert
    `e` against row `h` of the second weight. -/
theorem contrib_eq (c : Dev nD) (t : Fin cfg0.N) (e : Fin 8) (tok : Fin 2048) (b : Fin 8) (r : Fin 512) (h : Fin 1024)
    (he : e.val = t.val / 32) (htok : tok.val = t.val / 8 % 4 * 512 + r.val) (hb : b.val = t.val % 8) :
    contrib m c t r h
      = ∑ i : Fin 512, act (m ((c : Thread nD τ).loc main_arg0)) (m ((c : Thread nD τ).loc main_arg1)) e tok
            ⟨b.val * 512 + i.val, by have := b.isLt; have := i.isLt; omega⟩
          * m ((c : Thread nD τ).loc main_arg2) (ix3 e h ⟨b.val * 512 + i.val, by have := b.isLt; have := i.isLt; omega⟩) := by
  unfold contrib act proj
  refine Finset.sum_congr rfl fun i _ => ?_
  simp only [B0, B1, B2, B3, iblk0_at m c t e tok r he htok, iblk1_at m c t e b i he hb, iblk2_at m c t e b i he hb,
    iblk3_at m c t e b h he hb]

/-- The specification's result on core `c`, as contents of the result array. -/
abbrev R (c : Dev nD) : Buf (Elt Ideal) ((c : Thread nD τ).loc main_v0) :=
  G (m ((c : Thread nD τ).loc main_arg0)) (m ((c : Thread nD τ).loc main_arg1)) (m ((c : Thread nD τ).loc main_arg2))

/-- WHAT A WRITE-BACK WRITES: at a reduction's last block, the output window's buffer is that block of `G`. -/
theorem flushed_eq (c : Dev nD) (t : Fin cfg0.N) (hf : (cfg0.win 4).flush t = true) :
    (dats m 0 c).flushed 4 t = ((cfg0.win 4).blk t).view.read (Elt Ideal) (R m c) := by
  have hN : cfg0.N = 256 := N_0
  have h7 : t.val % 8 = 7 := (flush0_4 t).mp hf
  have h0 : ¬t.val % 8 = 0 := by omega
  obtain ⟨-, -, -, -, -, -, -, -, -, -, -, -, e0, e1, e2⟩ := idx_facts t
  show (cfg0.win 4).cut (grid0.coords t) ((dats m 0 c).after 4 t) = _
  rw [after4, out_last m c t h0 h7, ← acc_last m c t h0 h7]
  funext y
  obtain ⟨a, r, h, rfl⟩ : ∃ (a : Fin 1) (r : Fin 512) (h : Fin 1024), y = ix3 a r h := ⟨y 0, y 1, y 2, eq_ix3 y⟩
  obtain rfl : a = 0 := Subsingleton.elim _ _
  refine (pay3_apply _ r h).trans ?_
  rw [View.read_apply]
  -- the point is the last block of reduction q = t / 8
  obtain ⟨n, hn⟩ := t
  have hq : n = 8 * (n / 8) + 7 := by dsimp only at h7; omega
  have hq32 : n / 8 < 32 := by omega
  have hbs : ∀ b : Fin 8, 8 * (n / 8) + b.val < cfg0.N := fun b => by have := b.isLt; omega
  have h7' : 8 * (n / 8) + 7 < cfg0.N := by omega
  have hacc : ∀ (n' : ℕ) (hn' : n' < cfg0.N), n = n' →
      (outsAt m c n hn).2 (ix2 r h) = (outsAt m c n' hn').2 (ix2 r h) := by
    intro n' hn' e; subst e; rfl
  dsimp only at e0 e1 e2
  -- the block's entry (0, r, h) is the result array's entry (e, tok, h)
  have hemb : ((cfg0.win 4).blk ⟨n, hn⟩).view.emb (ix3 0 r h)
      = ix3 (⟨n / 32, by omega⟩ : Fin 8) (⟨n / 8 % 4 * 512 + r.val, by have := r.isLt; omega⟩ : Fin 2048) h := by
    funext a; apply Fin.ext
    match a with
    | ⟨0, _⟩ => show win0_4.index ⟨n, hn⟩ (0 : Fin 3) * 1 + 1 * 0 = n / 32; omega
    | ⟨1, _⟩ => show win0_4.index ⟨n, hn⟩ (1 : Fin 3) * 512 + 1 * r.val = n / 8 % 4 * 512 + r.val; omega
    | ⟨2, _⟩ => show win0_4.index ⟨n, hn⟩ (2 : Fin 3) * 1024 + 1 * h.val = h.val; omega
  rw [hemb]
  refine (hacc _ h7' hq).trans ?_
  rw [entry_closed m c (n / 8) hq32 r h h7' hbs]
  show _ = ∑ i : Fin 4096, act (m ((c : Thread nD τ).loc main_arg0)) (m ((c : Thread nD τ).loc main_arg1))
      (⟨n / 32, by omega⟩ : Fin 8) (⟨n / 8 % 4 * 512 + r.val, by have := r.isLt; omega⟩ : Fin 2048) i
    * m ((c : Thread nD τ).loc main_arg2) (ix3 (⟨n / 32, by omega⟩ : Fin 8) h i)
  rw [← sum_blocks (fun i : Fin 4096 => act (m ((c : Thread nD τ).loc main_arg0)) (m ((c : Thread nD τ).loc main_arg1))
      (⟨n / 32, by omega⟩ : Fin 8) (⟨n / 8 % 4 * 512 + r.val, by have := r.isLt; omega⟩ : Fin 2048) i
    * m ((c : Thread nD τ).loc main_arg2) (ix3 (⟨n / 32, by omega⟩ : Fin 8) h i))]
  refine Finset.sum_congr rfl fun b _ => ?_
  have hb8 := b.isLt
  exact contrib_eq m c ⟨8 * (n / 8) + b.val, hbs b⟩ (⟨n / 32, by omega⟩ : Fin 8)
    (⟨n / 8 % 4 * 512 + r.val, by have := r.isLt; omega⟩ : Fin 2048) b r h
    (by show n / 32 = (8 * (n / 8) + b.val) / 32; omega)
    (by show n / 8 % 4 * 512 + r.val = (8 * (n / 8) + b.val) / 8 % 4 * 512 + r.val; omega)
    (by show b.val = (8 * (n / 8) + b.val) % 8; omega)

/-- THE RESULT ARRAY after the run: the write-backs' blocks tile it, so it ends holding `G` of the argument arrays. -/
theorem final (c : Dev nD) : (dats m 0 c).arrAt 4 cfg0.N = R m c :=
  (dats m 0 c).arrAt_eq_of_cover 4 (R m c) (flushed_eq m c) cover4

/-- The run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c 4).trans (final m c),
     (h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

end Cert.KernelIdeal.KValue

end
-- ==== Proof.RefValue.lean ====
/-
  The reference program's result is the specification G of its three argument arrays.

  The reference computes, over the extended reals,
      gu[e, t, o]  = Σ_k x[e, t, k] · w_gate_up[e, o, k]
      gate         = gu[..., 0:4096],  up = gu[..., 4096:8192]
      act          = (gate · (1 / (1 + exp (−gate)))) · up
      out[e, t, h] = Σ_i act[e, t, i] · w_down[e, h, i]
  Each stage is read at an index; the two contractions are finite sums whose index functions are the coordinate
  triples of the specification, the two slices read column i and column i + 4096 of gu, and 1 / (1 + exp (−g)) is the
  logistic function by its definition. No algebraic law is used: both sides are the same sums of the same products.
-/
import proofs.«122314_j50105088475309_2_alg».proof.Proof.Gen.ReferenceIdeal.Read
import proofs.«122314_j50105088475309_2_alg».proof.Proof.Spec
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.StableHlo
  Idealize.ShloMosaic.ValueIdx Cert.Spec

/-- The first contraction at [e, t, o]: token t of expert e against row o of the first weight. -/
theorem gu_apply (x : FVec Ideal S8x2048x1024 .f32) (w1 : FVec Ideal S8x8192x1024 .f32)
    (e : Fin 8) (t : Fin 2048) (o : Fin 8192) :
    val_main_v0 (F := Ideal) x w1 (ix3 e t o) = proj x w1 e t o := by
  rw [val_main_v0_apply]
  unfold proj
  refine Finset.sum_congr rfl fun k _ => ?_
  have hl : lidx_main_v0 (ix3 e t o) k = ix3 e t k := funext fun a => Fin.ext (by
    match a with
    | ⟨0, _⟩ => rfl
    | ⟨1, _⟩ => rfl
    | ⟨2, _⟩ => rfl)
  have hr : ridx_main_v0 (ix3 e t o) k = ix3 e o k := funext fun a => Fin.ext (by
    match a with
    | ⟨0, _⟩ => rfl
    | ⟨1, _⟩ => rfl
    | ⟨2, _⟩ => rfl)
  rw [hl, hr]

/-- The gate slice reads column i of the first contraction. -/
theorem gate_idx (e : Fin 8) (t : Fin 2048) (i : Fin 4096) :
    idx_main_v1 (ix3 e t i) = ix3 e t (gateRow i) := funext fun a => Fin.ext (by
  match a with
  | ⟨0, _⟩ => rfl
  | ⟨1, _⟩ => rfl
  | ⟨2, _⟩ => rfl)

/-- The up slice reads column i + 4096 of the first contraction. -/
theorem up_idx (e : Fin 8) (t : Fin 2048) (i : Fin 4096) :
    idx_main_v2 (ix3 e t i) = ix3 e t (upRow i) := funext fun a => Fin.ext (by
  match a with
  | ⟨0, _⟩ => rfl
  | ⟨1, _⟩ => rfl
  | ⟨2, _⟩ => show 4096 + i.val = i.val + 4096; omega)

/-- The gated activation at [e, t, i]: (g · σ(g)) · u with g and u the gate and up projections. -/
theorem act_apply (x : FVec Ideal S8x2048x1024 .f32) (w1 : FVec Ideal S8x8192x1024 .f32)
    (e : Fin 8) (t : Fin 2048) (i : Fin 4096) :
    val_main_v4 (F := Ideal) x w1 (ix3 e t i) = act x w1 e t i := by
  rw [val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, val_main_v1_apply, val_main_v2_apply,
    gate_idx, up_idx, gu_apply, gu_apply]
  simp only [Ideal.hostDivf_def, Ideal.hostUnary_exp_def, Ideal.hostNegf_def, Ideal.negf_def, Ideal.addf_def,
    Ideal.mulf_def, Ideal.ofBits_def, Ideal.ofBits_one_f32]
  rfl

/-- The last stage of the reference, the second contraction, is G. -/
theorem stage_eq (x : FVec Ideal S8x2048x1024 .f32) (w1 : FVec Ideal S8x8192x1024 .f32)
    (w2 : FVec Ideal S8x1024x4096 .f32) :
    val_main_v5 (F := Ideal) x w1 w2 = G x w1 w2 := by
  funext j
  obtain ⟨e, t, h, rfl⟩ : ∃ (e : Fin 8) (t : Fin 2048) (h : Fin 1024), j = ix3 e t h := ⟨j 0, j 1, j 2, eq_ix3 j⟩
  rw [val_main_v5_apply]
  show _ = ∑ i : Fin 4096, act x w1 e t i * w2 (ix3 e h i)
  refine Finset.sum_congr rfl fun i _ => ?_
  have hl : lidx_main_v5 (ix3 e t h) i = ix3 e t i := funext fun a => Fin.ext (by
    match a with
    | ⟨0, _⟩ => rfl
    | ⟨1, _⟩ => rfl
    | ⟨2, _⟩ => rfl)
  have hr : ridx_main_v5 (ix3 e t h) i = ix3 e h i := funext fun a => Fin.ext (by
    match a with
    | ⟨0, _⟩ => rfl
    | ⟨1, _⟩ => rfl
    | ⟨2, _⟩ => rfl)
  rw [hl, hr, act_apply]

/-- The reference run's composed term for its result buffer, at the three argument arrays, is G of them. -/
theorem result_eq (x : FVec Ideal S8x2048x1024 .f32) (w1 : FVec Ideal S8x8192x1024 .f32)
    (w2 : FVec Ideal S8x1024x4096 .f32) :
    Host.dotGeneral (F := Ideal) dot_S8x2048x4096_S8x1024x4096_S8x2048x1024_2_2_1_1_0_0 none (mulf (mulf (extractStridedSlice S8x2048x4096 ![0, 0, 0] (Host.dotGeneral (F := Ideal) dot_S8x2048x1024_S8x8192x1024_S8x2048x8192_2_2_1_1_0_0 none x w1) slices_S8x2048x8192_S8x2048x4096_0_0_0) (Host.divf (broadcastInDim S8x2048x4096 ![] bcast_S_S8x2048x4096 (constant (F := Ideal) S_ .f32 0x3F800000#32)) (addf (broadcastInDim S8x2048x4096 ![] bcast_S_S8x2048x4096 (constant (F := Ideal) S_ .f32 0x3F800000#32)) (Host.exp (Host.negf (extractStridedSlice S8x2048x4096 ![0, 0, 0] (Host.dotGeneral (F := Ideal) dot_S8x2048x1024_S8x8192x1024_S8x2048x8192_2_2_1_1_0_0 none x w1) slices_S8x2048x8192_S8x2048x4096_0_0_0)))))) (extractStridedSlice S8x2048x4096 ![0, 0, 4096] (Host.dotGeneral (F := Ideal) dot_S8x2048x1024_S8x8192x1024_S8x2048x8192_2_2_1_1_0_0 none x w1) slices_S8x2048x8192_S8x2048x4096_0_0_4096)) w2
      = G x w1 w2 :=
  (val_main_v5_eq (F := Ideal) x w1 w2).trans (stage_eq x w1 w2)

end Cert.ReferenceIdeal.RefValue

end
-- ==== Proof.lean ====
/-
  The certificate of the fused expert feed-forward kernel against its jnp reference.

  The kernel computes, per expert, out = (silu(x · W_gateᵀ) ⊙ (x · W_upᵀ)) · W_downᵀ in one region over a grid of
  8 experts × 4 token blocks × 8 blocks of the intermediate axis, accumulating the down projection over the last grid
  axis in a scratch buffer; the gate rows and the up rows are two windows on ONE array, the first weight. The reference
  is two einsums around silu(gate) · up. Over the extended reals a change of float format is the identity, a
  matrix product into a zero accumulator is the plain sum of products, the logistic operation is 1 / (1 + exp (−x))
  on both sides by definition, and a sum over 4096 units grouped into eight blocks of 512 is the same sum: the two
  programs compute one function of their arguments, with no appeal to finiteness.

  The frames of the two kernel programs are one development read at each program (Proof/K, Proof/KI): the body run once
  per case of its two conditionals, the accumulator tracked from point to point, the shared array's buffer dealt to its two
  windows in halves (Proof/LibSharedFrame.lean). The reference's frame is its run with the result dropped. The ideal pass
  rewrote nothing, so the preservation claim is trivial. The value claim joins the kernel's result array
  (Proof/KI/Value.lean) and the reference's (Proof/RefValue.lean) at the specification (Proof/Spec.lean).
-/
import proofs.«122314_j50105088475309_2_alg».proof.Defs
import proofs.«122314_j50105088475309_2_alg».proof.Proof.Gen.Kernel
import proofs.«122314_j50105088475309_2_alg».proof.Proof.Gen.KernelIdeal
import proofs.«122314_j50105088475309_2_alg».proof.Proof.Gen.ReferenceIdeal
import proofs.«122314_j50105088475309_2_alg».proof.Proof.Gen.Pre_finite_inputs
import proofs.«122314_j50105088475309_2_alg».proof.Proof.Gen.ReferenceIdeal.Read
import proofs.«122314_j50105088475309_2_alg».proof.Proof.K.Frame
import proofs.«122314_j50105088475309_2_alg».proof.Proof.KI.Value
import proofs.«122314_j50105088475309_2_alg».proof.Proof.RefValue

noncomputable section

namespace Cert.Proof

open Idealize.ShloMosaic Idealize.ShloMosaic.TcCoe Idealize.SL.Sem

/-- The word-level kernel runs to the end, nothing faulting, its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the specification's result. -/
theorem algebraic : Cert.algebraic_KernelIdeal_ReferenceIdeal := by
  intro m ρ m' ρ' _ hagree
  refine ⟨fun c => Cert.KernelIdeal.KValue.R m c, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
